-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x32 : Shape := ⟨2, ![256, 32]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S8192x256 .f32) (main_arg1 : FVec F S8192x8192 .f32) (main_arg2 : FVec F S256x32 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S256x32 : Shape := ⟨2, ![256, 32]⟩
abbrev S8192x32 : Shape := ⟨2, ![8192, 32]⟩
abbrev S2048x256 : Shape := ⟨2, ![2048, 256]⟩
abbrev S2048x32 : Shape := ⟨2, ![2048, 32]⟩
abbrev S1024x2048 : Shape := ⟨2, ![1024, 2048]⟩
abbrev S1024x32 : Shape := ⟨2, ![1024, 32]⟩

abbrev nBuf : Space → Nat
  | .hbm => 5
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x32, .f32⟩
  | .hbm, ⟨3, _⟩ => ⟨S8192x32, .f32⟩
  | .hbm, ⟨4, _⟩ => ⟨S8192x32, .f32⟩
  | .local _ .vmem, ⟨0, _⟩ => ⟨S2048x256, .f32⟩
  | .local _ .vmem, ⟨1, _⟩ => ⟨S2048x256, .f32⟩
  | .local _ .vmem, ⟨2, _⟩ => ⟨S256x32, .f32⟩
  | .local _ .vmem, ⟨3, _⟩ => ⟨S2048x32, .f32⟩
  | .local _ .vmem, ⟨4, _⟩ => ⟨S2048x32, .f32⟩
  | .local _ .vmem, ⟨5, _⟩ => ⟨S1024x2048, .f32⟩
  | .local _ .vmem, ⟨6, _⟩ => ⟨S1024x2048, .f32⟩
  | .local _ .vmem, ⟨7, _⟩ => ⟨S8192x32, .f32⟩
  | .local _ .vmem, ⟨8, _⟩ => ⟨S1024x32, .f32⟩
  | .local _ .vmem, ⟨9, _⟩ => ⟨S1024x32, .f32⟩
  | .local _ .vmem, ⟨10, _⟩ => ⟨S1024x32, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S2048x32_S2048x32_0_0 : ∀ a, (![0, 0] : Fin 2 → Nat) a + S2048x32.size a ≤ S2048x32.size a
  h_S2048x32 : 0 < S2048x32.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  shapeCasts_S2048x32_S2048x32 : S2048x32.ShapeCasts S2048x32
  dot_S2048x256_S256x32_S2048x32_1_0_0_1_n_n_wf : DotDims.WF S2048x256 S256x32 S2048x32 [1] [0] [0] [1] [] []
  dot_S1024x2048_S2048x32_S1024x32_1_0_0_1_n_n_wf : DotDims.WF S1024x2048 S2048x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S8192x32.size a
  hwx0_2 : ∀ i : grid0.Coords, EltTy.bits .f32 = 32 ∨ (Rect.block (s := S8192x32) S2048x32.size (cc0_transform_2 i) (hinb0_2 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x32.size a ≤ S8192x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x32.size a ≤ S8192x32.size a
  hwx1_1 : ∀ i : grid1.Coords, EltTy.bits .f32 = 32 ∨ (Rect.block (s := S8192x32) S8192x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S8192x32.size a
  hwx1_2 : ∀ i : grid1.Coords, EltTy.bits .f32 = 32 ∨ (Rect.block (s := S8192x32) S1024x32.size (cc1_transform_2 i) (hinb1_2 i)).WholeWords (EltTy.packing .f32)

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x32 : Shape := ⟨2, ![256, 32]⟩
abbrev S8192x32 : Shape := ⟨2, ![8192, 32]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x32, .f32⟩
  | .hbm, ⟨3, _⟩ => ⟨S8192x32, .f32⟩
  | .hbm, ⟨4, _⟩ => ⟨S8192x32, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8192x256_S256x32_S8192x32_1_0_0_1_n_n_wf : DotDims.WF S8192x256 S256x32 S8192x32 [1] [0] [0] [1] [] []
  dot_S8192x8192_S8192x32_S8192x32_1_0_0_1_n_n_wf : DotDims.WF S8192x8192 S8192x32 S8192x32 [1] [0] [0] [1] [] []

variable [Facts₀]

def dot_S8192x256_S256x32_S8192x32_1_0_0_1_n_n : DotDims S8192x256 S256x32 S8192x32 where
  lhsContracting := [1]
  rhsContracting := [0]
  lhsNonContracting := [0]
  rhsNonContracting := [1]
  lhsBatch := []
  rhsBatch := []
  wf := dot_S8192x256_S256x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.KData.lean ====
/-
  What the two kernels leave behind, point by point, as functions of the buffers' contents when each
  kernel is entered.

  First kernel (the product of a block of 2048 rows of the feature matrix with the whole weight matrix,
  one block per grid point): after the body at point t the output block holds the body's one product of
  the two input blocks at t.

  Second kernel (grid 8 x 4: row block i, reduction step k, point t = 4 i + k): a scratch block is set to
  zero at k = 0, at every step the product of the adjacency block (i, k) with rows 2048 k .. 2048 k + 2047
  of the first kernel's result is added to it, and at k = 3 it is copied to the output block, which is
  written back there and nowhere else. `acc1` is the scratch after point t, by recursion on t: a run of
  four points starts from the zero block, every other point from what the point before left.
-/
import proofs.«145061_j50921132261911_2_alg».proof.Proof.Gen.Kernel.Launch
import proofs.«145061_j50921132261911_2_alg».proof.Proof.Gen.Kernel.Skeleton
import proofs.«145061_j50921132261911_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a kernel is entered: each kernel's data is stated at this parameter
variable (V : (c : Dev nD) → (b : Ref sig .tc) → Buf (Elt F) ((c : Thread nD τ).loc b))

/-- Zero offsets, however spelt. -/
theorem zeros2 : (![0, 0] : Fin 2 → Nat) = fun _ => 0 := funext fun a => by fin_cases a <;> rfl

/-! ## First kernel -/

/-- Block t of window w's array, as the first kernel finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first kernel's data: inputs left in place, the output block at the product of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

/-! ## Second kernel -/

/-- Block t of window w's array, as the second kernel finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the resident operand that reduction step i 1 multiplies: 2048 rows from row 2048 (i 1). -/
abbrev slabRect (i : grid1.Coords) : Rect S8192x32 := Rect.unit (s := S8192x32) (k1_off1 i) S2048x32.size (k1_off1_inb i)

/-- One reduction step: the accumulator a plus the product of the adjacency block x0 with the slab of x1. -/
def step1 (i : grid1.Coords) (x0 : Vec F S1024x2048 .f32) (x1 : Vec F S8192x32 .f32) (a : Vec F S1024x32 .f32) :
    Vec F S1024x32 .f32 :=
  k1_pay2 x0 (View.ld x1 (slabRect i)) a

/-- The scratch after point n: a run starts (n a multiple of 4) from the zero block, every other point from what
    the point before left. -/
def acc1 (c : Dev nD) : (n : ℕ) → n < cfg1.N → Vec F S1024x32 .f32
  | 0, hn => step1 (grid1.coords ⟨0, hn⟩) (iblk1 V c 0 ⟨0, hn⟩) (iblk1 V c 1 ⟨0, hn⟩) (k1_pay1 (F := F))
  | n + 1, hn =>
    if (n + 1) % 4 = 0 then
      step1 (grid1.coords ⟨n + 1, hn⟩) (iblk1 V c 0 ⟨n + 1, hn⟩) (iblk1 V c 1 ⟨n + 1, hn⟩) (k1_pay1 (F := F))
    else
      step1 (grid1.coords ⟨n + 1, hn⟩) (iblk1 V c 0 ⟨n + 1, hn⟩) (iblk1 V c 1 ⟨n + 1, hn⟩) (acc1 c n (Nat.lt_of_succ_lt hn))

/-- At the first point of a run. -/
theorem acc1_reset (c : Dev nD) (t : Fin cfg1.N) (h0 : t.val % 4 = 0) :
    acc1 V c t.val t.isLt = step1 (grid1.coords t) (iblk1 V c 0 t) (iblk1 V c 1 t) (k1_pay1 (F := F)) := by
  obtain ⟨n, hn⟩ := t
  cases n with
  | zero => rfl
  | succ n => exact if_pos h0

/-- At every other point. -/
theorem acc1_step (c : Dev nD) (t : Fin cfg1.N) (h0 : ¬t.val % 4 = 0) :
    acc1 V c t.val t.isLt = step1 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact if_neg h0

/-- The scratch operand: a whole buffer of the kernel's own. -/
abbrev scM : Memref sig .tc .vmem S1024x32 .f32 := Memref.whole cc1_scratch0

/-- An assertion beside the first kernel's five staging buffers, which the second kernel never touches: each of
    them whole at some contents. -/
def withOthers (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S)

/-- Before the first point: those five, the scratch at anything, the generator register at some state. -/
theorem PhiA1_eq (c : Dev nD) :
    (Pipeline.ΦA spec1 c : sProp 𝕄)
      = iprop(withOthers c iprop(∃ d, owns (c : Thread nD τ) scM fullShare d) ∗ (∃ r, prngReg c r)) := by
  unfold Pipeline.ΦA withOthers; rw [scopedRest1_eq]; simp only [scM, owns_whole]; try rfl

/-- The second kernel's invariant before position n: before the first point every scoped buffer no window stages
    at anything; afterwards the scratch at what the point before left; the generator register at some state. -/
def PhiS (c : Dev nD) : (n : ℕ) → n ≤ cfg1.N → sProp 𝕄
  | 0, _ => Pipeline.ΦA spec1 c
  | n + 1, hn => iprop(iprop(
      withOthers c (owns (c : Thread nD τ) scM fullShare (acc1 V c n hn))) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(
      withOthers c (owns (c : Thread nD τ) scM fullShare (acc1 V c n hn))) ∗ (∃ r, prngReg c r)) := rfl

theorem PhiS_pos (c : Dev nD) (n : ℕ) (h : n ≤ cfg1.N) (hz : n ≠ 0) :
    PhiS V c n h = iprop(iprop(
      withOthers c (owns (c : Thread nD τ) scM fullShare (acc1 V c (n - 1) (by omega)))) ∗ (∃ r, prngReg c r)) := by
  cases n with
  | zero => exact absurd rfl hz
  | succ n => rfl

/-- The second kernel's data: inputs left in place, the output block at the scratch's contents (consulted only at
    the points that write it back), the invariant carrying the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end Cert.Kernel.Hand

end
-- ==== Proof.KBody0.lean ====
/-
  The first kernel's body at any grid point: it reads its two input blocks whole, and leaves in the output block
  its one product of them; the inputs, the invariant and what the core owes pass through untouched.
-/
import proofs.«145061_j50921132261911_2_alg».proof.Proof.KData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input block is found in its staging buffer at every point, fetched there or not (a block not fetched has
    the index of the point before). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The whole-block rectangles the body loads and stores through. -/
abbrev rA : Rect S2048x256 := Rect.unit (s := S2048x256) ![0, 0] S2048x256.size inb_S2048x256_S2048x256_0_0
abbrev rB : Rect S256x32 := Rect.unit (s := S256x32) ![0, 0] S256x32.size inb_S256x32_S256x32_0_0
abbrev rC : Rect S2048x32 := Rect.unit (s := S2048x32) ![0, 0] S2048x32.size inb_S2048x32_S2048x32_0_0

/-- The one store covers the output block. -/
theorem cover0_2 (p0 : Vec F S2048x32 .f32) (y : S2048x32.Idx) :
    ∃ pc ∈ ([⟨rC, p0⟩] : List (View.Piece (Elt F) S2048x32 .f32)), y ∈ pc.1.set :=
  ⟨_, List.mem_singleton_self _, View.mem_set_unit_zero zeros2 inb_S2048x32_S2048x32_0_0 y⟩

/-- One covering store of the product of whole-block loads leaves the product of the blocks. -/
theorem stored0 (x0 : Vec F S2048x256 .f32) (x1 : Vec F S256x32 .f32) :
    View.canon [(⟨rC, k0_pay1 (View.ld x0 rA) (View.ld x1 rB)⟩ : View.Piece (Elt F) S2048x32 .f32)] = k0_pay1 x0 x1 := by
  rw [View.canon_unit_zero zeros2, View.ld_unit_zero zeros2, View.ld_unit_zero zeros2]

set_option maxHeartbeats 1000000 in
/-- The body on whole staging memrefs. -/
theorem sound_kernel0 (c : Dev nD) (E : Set ℕ) (arg1 : Memref sig .tc .vmem S2048x256 .f32) (harg1 : arg1.IsWhole)
    (arg2 : Memref sig .tc .vmem S256x32 .f32) (harg2 : arg2.IsWhole) (arg3 : Memref sig .tc .vmem S2048x32 .f32) (harg3 : arg3.IsWhole)
    (i : grid0.Coords) (x0 : Vec F S2048x256 .f32) (x1 : Vec F S256x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__hw_kernel i arg1 harg1 arg2 harg2 arg3 harg3) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  first
    | exact (stored0 _ _).symm.trans (View.read_writes_eq_canon _ _ _ (cover0_2 _)).symm
    | exact (stored0 _ _).symm.trans (View.read_writes_eq_canon _ _ _ (cover0_2 _))
    | exact ((View.read_writes_eq_canon _ _ _ (cover0_2 _)).trans (stored0 _ _)).symm
    | exact (View.read_writes_eq_canon _ _ _ (cover0_2 _)).trans (stored0 _ _)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first kernel, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The second kernel's body at any grid point t = 4 i + k. Three control cases: k = 0 (the scratch is zeroed
  first), k = 1, 2 (neither branch), k = 3 (the scratch is copied to the output block at the end). In each the
  scratch ends at one reduction step over what it started from (the zero block at k = 0); the output block is
  left as found unless k = 3.
-/
import proofs.«145061_j50921132261911_2_alg».proof.Proof.KData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions over the grid -/

/-- The first branch (zero the scratch) is taken. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second branch (copy the scratch out) is taken. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle; the output is idle, and not written back, exactly where k is not 3. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬t.val % 4 = 3 → cfg1.idle 2 (grid1.coords t) = true := by decide +kernel
theorem live1_2 : ∀ t : Fin cfg1.N, t.val % 4 = 3 → cfg1.idle 2 (grid1.coords t) = false := by decide +kernel
theorem noflush1_2 : ∀ t : Fin cfg1.N, ¬t.val % 4 = 3 → (cfg1.win 2).flush t = false :=
  (by decide +kernel : ∀ t : Fin grid1.N, ¬t.val % 4 = 3 → win1_2.flush t = false)

/-! ## The inputs' blocks -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body's accesses -/

abbrev rAdj : Rect S1024x2048 := Rect.unit (s := S1024x2048) ![0, 0] S1024x2048.size inb_S1024x2048_S1024x2048_0_0
abbrev rAcc : Rect S1024x32 := Rect.unit (s := S1024x32) ![0, 0] S1024x32.size inb_S1024x32_S1024x32_0_0

theorem coverAcc (L : List (View.Piece (Elt F) S1024x32 .f32)) (p0 : Vec F S1024x32 .f32) (y : S1024x32.Idx) :
    ∃ pc ∈ ((⟨rAcc, p0⟩ : View.Piece (Elt F) S1024x32 .f32) :: L), y ∈ pc.1.set :=
  ⟨_, List.mem_cons_self, View.mem_set_unit_zero zeros2 inb_S1024x32_S1024x32_0_0 y⟩

/-! ## The body's triple, case by case -/

set_option maxHeartbeats 2000000 in
/-- k = 0: the scratch, found at anything, ends at one step over the zero block. -/
theorem sound_kernel1_A (c : Dev nD) (E : Set ℕ) (arg2 : Memref sig .tc .vmem S1024x2048 .f32) (harg2 : arg2.IsWhole)
    (arg3 : Memref sig .tc .vmem S8192x32 .f32) (harg3 : arg3.IsWhole) (arg4 : Memref sig .tc .vmem S1024x32 .f32) (harg4 : arg4.IsWhole)
    (arg5 : Memref sig .tc .vmem S1024x32 .f32) (harg5 : arg5.IsWhole)
    (i : grid1.Coords) (hc0 : cond1_0 i) (hc1 : ¬cond1_1 i)
    (x0 : Vec F S1024x2048 .f32) (x1 : Vec F S8192x32 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (step1 i x0 x1 (k1_pay1 (F := F)))) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (fun y => coverAcc _ _ y), View.canon_cons_unit_zero (S := S1024x32) zeros2,
    View.readCov_unit_zero (S := S1024x32) _ zeros2]
  unfold step1
  simp only [View.readAt_eq_ld, View.ld_unit_zero (S := S1024x2048) zeros2]

set_option maxHeartbeats 2000000 in
/-- k = 1, 2: the scratch, found at xs, ends at one step over xs. -/
theorem sound_kernel1_B (c : Dev nD) (E : Set ℕ) (arg2 : Memref sig .tc .vmem S1024x2048 .f32) (harg2 : arg2.IsWhole)
    (arg3 : Memref sig .tc .vmem S8192x32 .f32) (harg3 : arg3.IsWhole) (arg4 : Memref sig .tc .vmem S1024x32 .f32) (harg4 : arg4.IsWhole)
    (arg5 : Memref sig .tc .vmem S1024x32 .f32) (harg5 : arg5.IsWhole)
    (i : grid1.Coords) (hc0 : ¬cond1_0 i) (hc1 : ¬cond1_1 i)
    (x0 : Vec F S1024x2048 .f32) (x1 : Vec F S8192x32 .f32) (xs : Vec F S1024x32 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (step1 i x0 x1 xs)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (fun y => coverAcc _ _ y), View.canon_unit_zero (S := S1024x32) zeros2]
  unfold step1
  simp only [View.readAt_eq_ld, View.ld_unit_zero (S := S1024x2048) zeros2, View.ld_unit_zero (S := S1024x32) zeros2]

set_option maxHeartbeats 2000000 in
/-- k = 3: the scratch, found at xs, ends at one step over xs, and the output block, found at anything, at the same. -/
theorem sound_kernel1_C (c : Dev nD) (E : Set ℕ) (arg2 : Memref sig .tc .vmem S1024x2048 .f32) (harg2 : arg2.IsWhole)
    (arg3 : Memref sig .tc .vmem S8192x32 .f32) (harg3 : arg3.IsWhole) (arg4 : Memref sig .tc .vmem S1024x32 .f32) (harg4 : arg4.IsWhole)
    (arg5 : Memref sig .tc .vmem S1024x32 .f32) (harg5 : arg5.IsWhole)
    (i : grid1.Coords) (hc0 : ¬cond1_0 i) (hc1 : cond1_1 i)
    (x0 : Vec F S1024x2048 .f32) (x1 : Vec F S8192x32 .f32) (xs : Vec F S1024x32 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (step1 i x0 x1 xs)
            ∗ owns (c : Thread nD τ) arg5 fullShare (step1 i x0 x1 xs)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (fun y => coverAcc _ _ y), View.canon_unit_zero (S := S1024x32) zeros2,
      View.readCov_unit_zero (S := S1024x32) _ zeros2]
    unfold step1
    simp only [View.readAt_eq_ld, View.ld_unit_zero (S := S1024x2048) zeros2, View.ld_unit_zero (S := S1024x32) zeros2]
  iexists _; isplitr
  swap; · iexact H5
  ipureintro
  sl_unfold_run_names
  rw [View.read_writes_eq_canon _ _ _ (fun y => coverAcc _ _ y), View.canon_unit_zero (S := S1024x32) zeros2]
  unfold step1
  simp only [View.readAt_eq_ld, View.ld_unit_zero (S := S1024x2048) zeros2, View.ld_unit_zero (S := S1024x32) zeros2]

/-! ## The body obligation -/

/-- The five untouched buffers ride beside whatever is said of the scratch. -/
theorem withOthers_mono (c : Dev nD) {S S' : sProp 𝕄} (h : S ⊢ S') : withOthers c S ⊢ withOthers c S' := by
  unfold withOthers
  iintro ⟨HA, HB, HC, HD, HE, HS⟩
  isplitl [HA]; · iexact HA
  isplitl [HB]; · iexact HB
  isplitl [HC]; · iexact HC
  isplitl [HD]; · iexact HD
  isplitl [HE]; · iexact HE
  iapply h; iexact HS

/-- The scratch's contents may be forgotten. -/
theorem withOthers_forget (c : Dev nD) (x : Vec F S1024x32 .f32) :
    withOthers c (owns (c : Thread nD τ) scM fullShare x) ⊢ withOthers c iprop(∃ d, owns (c : Thread nD τ) scM fullShare d) :=
  withOthers_mono c (by iintro HS; iexists x; iexact HS)

/-- What is said of the scratch, taken out from beside them, with the way back. -/
theorem withOthers_elim (c : Dev nD) (S : sProp 𝕄) :
    withOthers c S ⊢ iprop(S ∗ (∀ S' : sProp 𝕄, S' -∗ withOthers c S')) := by
  unfold withOthers
  iintro ⟨HA, HB, HC, HD, HE, HS⟩
  isplitl [HS]; · iexact HS
  iintro %S' HS'
  isplitl [HA]; · iexact HA
  isplitl [HB]; · iexact HB
  isplitl [HC]; · iexact HC
  isplitl [HD]; · iexact HD
  isplitl [HE]; · iexact HE
  iexact HS'

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  have hN : t.val < 32 := lt_of_lt_of_eq t.isLt (show cfg1.N = 32 from N_1)
  by_cases h3 : t.val % 4 = 3
  · have h0 : ¬t.val % 4 = 0 := by omega
    have hz : t.val ≠ 0 := by omega
    rw [show (dat1 V c).leavesExact 2 t = owns (c : Thread nD τ) (st1_2 t) fullShare ((dat1 V c).after 2 t) from by
      unfold Dat.leavesExact; rw [live1_2 t h3], after1_2]
    rw [acc1_step V c t h0, PhiS_castSucc V c t, PhiS_pos V c _ _ hz]
    iintro ⟨⟨HW, Hg⟩, Ho, ⟨%d0, H0⟩, ⟨%d1, H1⟩, ⟨%d2, H2⟩⟩
    ihave HW' := (withOthers_elim c _) $$ HW
    icases HW' with ⟨HS, Hback⟩
    iapply (sound_kernel1_C c Set.univ _ _ _ _ _ _ _ _ (grid1.coords t) (fun h => h0 ((hcond1_0 t).mp h)) ((hcond1_1 t).mpr h3)
      (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [Hback HS Hg]
    · isplitl [Hback HS]
      · iapply Hback; iexact HS
      iexact Hg
    isplitl [Ho]; · iexact Ho
    isplitl [H0]; · iexact H0
    isplitl [H1]; · iexact H1
    iexact H2
  · rw [Dat.leavesExact_idle (dat1 V c) 2 t (idle1_2 t h3) (noflush1_2 t h3)]
    by_cases h0 : t.val % 4 = 0
    · rw [acc1_reset V c t h0]
      have hfound : (dat1 V c).Φ t.castSucc ⊢ iprop(withOthers c iprop(∃ d, owns (c : Thread nD τ) scM fullShare d) ∗ (∃ r, prngReg c r)) := by
        rw [PhiS_castSucc V c t]
        by_cases hz : t.val = 0
        · rw [PhiS_zero V c _ _ hz, PhiA1_eq]
        · rw [PhiS_pos V c _ _ hz]
          exact sep_mono (withOthers_forget c _) .rfl
      iintro ⟨HΦ, Ho, ⟨%d0, H0⟩, ⟨%d1, H1⟩, ⟨%d2, H2⟩⟩
      ihave HΦ' := hfound $$ HΦ
      icases HΦ' with ⟨HW, Hg⟩
      ihave HW' := (withOthers_elim c _) $$ HW
      icases HW' with ⟨HS, Hback⟩
      iapply (sound_kernel1_A c Set.univ _ _ _ _ _ _ _ _ (grid1.coords t) ((hcond1_0 t).mpr h0) (fun h => h3 ((hcond1_1 t).mp h))
        (iblk1 V c 0 t) (iblk1 V c 1 t) _)
      isplitl [H0]; · iexact H0
      isplitl [H1]; · iexact H1
      isplitl [HS]; · iexact HS
      iintro ⟨H0, H1, HS⟩
      isplitl [Hback HS Hg]
      · isplitl [Hback HS]
        · iapply Hback; iexact HS
        iexact Hg
      isplitl [Ho]; · iexact Ho
      isplitl [H0]; · iexact H0
      isplitl [H1]; · iexact H1
      iexists _; iexact H2
    · have hz : t.val ≠ 0 := by omega
      rw [acc1_step V c t h0, PhiS_castSucc V c t, PhiS_pos V c _ _ hz]
      iintro ⟨⟨HW, Hg⟩, Ho, ⟨%d0, H0⟩, ⟨%d1, H1⟩, ⟨%d2, H2⟩⟩
      ihave HW' := (withOthers_elim c _) $$ HW
      icases HW' with ⟨HS, Hback⟩
      iapply (sound_kernel1_B c Set.univ _ _ _ _ _ _ _ _ (grid1.coords t) (fun h => h0 ((hcond1_0 t).mp h)) (fun h => h3 ((hcond1_1 t).mp h))
        (iblk1 V c 0 t) (iblk1 V c 1 t) _ _)
      isplitl [H0]; · iexact H0
      isplitl [H1]; · iexact H1
      isplitl [HS]; · iexact HS
      iintro ⟨H0, H1, HS⟩
      isplitl [Hback HS Hg]
      · isplitl [Hback HS]
        · iapply Hback; iexact HS
        iexact Hg
      isplitl [Ho]; · iexact Ho
      isplitl [H0]; · iexact H0
      isplitl [H1]; · iexact H1
      iexists _; iexact H2

/-- The body obligation of the second kernel, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program: the two kernels one after the other. Between them the core holds every unscoped buffer at
  known contents: the launch contents; then, after the first kernel, its output array at what its write-backs
  leave and everything else as before; then the same for the second kernel. Read at the end, the result array
  holds what the second kernel's write-backs leave, and the three argument arrays hold their launch contents: no
  kernel writes an array it only reads.
-/
import proofs.«145061_j50921132261911_2_alg».proof.Proof.KBody0
import proofs.«145061_j50921132261911_2_alg».proof.Proof.KBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m (c, b)
abbrev Vr0 : (c : Dev nD) → (b : Ref sig .tc) → Buf (Elt F) ((c : Thread nD τ).loc b) := fun c b => W0 m c b
/-- After the first kernel: its arrays at what the pipeline leaves, every other buffer as before. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the second kernel. -/
def W2 (c : Dev nD) : Valuation τ sig (Elt F) :=
  Pipeline.withArrays spec1 c (W1 m c) fun w => (dat1 (Vr1 m) c).arrAt w cfg1.N
theorem W2_arr (c : Dev nD) (w : Fin cfg1.W) :
    W2 m c (Proc.devRef .tc (Pipeline.arrRef spec1 w)) = (dat1 (Vr1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vr2 : (c : Dev nD) → (b : Ref sig .tc) → Buf (Elt F) ((c : Thread nD τ).loc b) := fun c b => W2 m c b
theorem hF1 (c : Dev nD) (w : Fin cfg1.W) : (dat1 (Vr1 m) c).arrAt w cfg1.N = Vr2 m c (Pipeline.arrRef spec1 w) :=
  (W2_arr m c w).symm
theorem hrest1 (c : Dev nD) : ∀ b, b ∉ Finset.univ.image (Pipeline.arrRef spec1) → Vr2 m c b = Vr1 m c b :=
  fun b hb => W2_of_ne m c b fun w e => hb (Finset.mem_image.mpr ⟨w, Finset.mem_univ _, e⟩)

/-! ## The arguments end as launched, the result at the second kernel's write-backs -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (Vr0 m) c).arrAt_in 0 rfl _).trans (A_eq0 (Vr0 m) c 0))
    _ = m ((c : Thread nD τ).loc main_arg0) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (Vr0 m) c).arrAt_in 1 rfl _).trans (A_eq0 (Vr0 m) c 1))
    _ = m ((c : Thread nD τ).loc main_arg2) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((dat1 (Vr1 m) c).arrAt_in 0 rfl _).trans (A_eq1 (Vr1 m) c 0))
    _ = W0 m c (Proc.devRef .tc main_arg1) := W1_of_ne m c main_arg1 (by decide)
    _ = m ((c : Thread nD τ).loc main_arg1) := rfl
theorem W2_main_v1 (c : Dev nD) : W2 m c (Proc.devRef .tc main_v1) = (dat1 (Vr1 m) c).arrAt 2 cfg1.N :=
  W2_arr m c 2
/-- What the second kernel finds in its resident operand: the first kernel's result array. -/
theorem Vr1_main_v0 (c : Dev nD) : Vr1 m c main_v0 = (dat0 (Vr0 m) c).arrAt 2 cfg0.N := W1_arr m c 2
/-- And in the adjacency array: its launch contents. -/
theorem Vr1_main_arg1 (c : Dev nD) : Vr1 m c main_arg1 = m ((c : Thread nD τ).loc main_arg1) :=
  W1_of_ne m c main_arg1 (by decide)

/-! ## The proof data family and the thread state -/

abbrev adm : (p : Fin 2) → (pcfgs (F := F) p).Adm := fun p => (cfgs p).toPCfg_adm
/-- Both pipelines' data, each at its kernel's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- Beside the buffers: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The kernels as segments -/

set_option backward.isDefEq.respectTransparency.types false in
/-- The first kernel: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After its last point the second kernel's invariant gives the scoped rest back: the scratch's contents forgotten. -/
theorem Phi1_out (c : Dev nD) : (dat1 (Vr1 m) c).Φ (Fin.last cfg1.N) ⊢ Pipeline.ΦA spec1 c := by
  rw [show (dat1 (Vr1 m) c).Φ (Fin.last cfg1.N) = PhiS (Vr1 m) c (Fin.last cfg1.N).val (Nat.le_of_lt_succ (Fin.last cfg1.N).isLt) from rfl,
    PhiS_pos (Vr1 m) c _ _ (by rw [Fin.val_last]; have : cfg1.N = 32 := N_1; omega), PhiA1_eq]
  unfold withOthers
  iintro ⟨⟨HA, HB, HC, HD, HE, HS⟩, Hg⟩
  isplitl [HA HB HC HD HE HS]
  · isplitl [HA]; · iexact HA
    isplitl [HB]; · iexact HB
    isplitl [HC]; · iexact HC
    isplitl [HD]; · iexact HD
    isplitl [HE]; · iexact HE
    iexists _; iexact HS
  iexact Hg

set_option backward.isDefEq.respectTransparency.types false in
/-- The second kernel: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_out m c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- Every weakly fair execution of the program terminates, nothing faulting; at the end the result array holds
    what the second kernel's write-backs leave and each argument array its launch contents. -/
theorem run_main : θ_run defs (onTc (τ := τ) (main (F := F))) ⟨m, fun _ => 0, ρ⟩ (fun r => ∀ c : Dev nD,
      r.2.mem ((c.tc : Thread nD τ).loc main_v1) = (dat1 (Vr1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c)⟩)

end Cert.Kernel.Hand

end
-- ==== Proof.KIData.lean ====
/-
  What the two kernels leave behind, point by point, as functions of the buffers' contents when each
  kernel is entered.

  First kernel (the product of a block of 2048 rows of the feature matrix with the whole weight matrix,
  one block per grid point): after the body at point t the output block holds the body's one product of
  the two input blocks at t.

  Second kernel (grid 8 x 4: row block i, reduction step k, point t = 4 i + k): a scratch block is set to
  zero at k = 0, at every step the product of the adjacency block (i, k) with rows 2048 k .. 2048 k + 2047
  of the first kernel's result is added to it, and at k = 3 it is copied to the output block, which is
  written back there and nowhere else. `acc1` is the scratch after point t, by recursion on t: a run of
  four points starts from the zero block, every other point from what the point before left.
-/
import proofs.«145061_j50921132261911_2_alg».proof.Proof.Gen.KernelIdeal.Launch
import proofs.«145061_j50921132261911_2_alg».proof.Proof.Gen.KernelIdeal.Skeleton
import proofs.«145061_j50921132261911_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a kernel is entered: each kernel's data is stated at this parameter
variable (V : (c : Dev nD) → (b : Ref sig .tc) → Buf (Elt F) ((c : Thread nD τ).loc b))

/-- Zero offsets, however spelt. -/
theorem zeros2 : (![0, 0] : Fin 2 → Nat) = fun _ => 0 := funext fun a => by fin_cases a <;> rfl

/-! ## First kernel -/

/-- Block t of window w's array, as the first kernel finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first kernel's data: inputs left in place, the output block at the product of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

/-! ## Second kernel -/

/-- Block t of window w's array, as the second kernel finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the resident operand that reduction step i 1 multiplies: 2048 rows from row 2048 (i 1). -/
abbrev slabRect (i : grid1.Coords) : Rect S8192x32 := Rect.unit (s := S8192x32) (k1_off1 i) S2048x32.size (k1_off1_inb i)

/-- One reduction step: the accumulator a plus the product of the adjacency block x0 with the slab of x1. -/
def step1 (i : grid1.Coords) (x0 : Vec F S1024x2048 .f32) (x1 : Vec F S8192x32 .f32) (a : Vec F S1024x32 .f32) :
    Vec F S1024x32 .f32 :=
  k1_pay2 x0 (View.ld x1 (slabRect i)) a

/-- The scratch after point n: a run starts (n a multiple of 4) from the zero block, every other point from what
    the point before left. -/
def acc1 (c : Dev nD) : (n : ℕ) → n < cfg1.N → Vec F S1024x32 .f32
  | 0, hn => step1 (grid1.coords ⟨0, hn⟩) (iblk1 V c 0 ⟨0, hn⟩) (iblk1 V c 1 ⟨0, hn⟩) (k1_pay1 (F := F))
  | n + 1, hn =>
    if (n + 1) % 4 = 0 then
      step1 (grid1.coords ⟨n + 1, hn⟩) (iblk1 V c 0 ⟨n + 1, hn⟩) (iblk1 V c 1 ⟨n + 1, hn⟩) (k1_pay1 (F := F))
    else
      step1 (grid1.coords ⟨n + 1, hn⟩) (iblk1 V c 0 ⟨n + 1, hn⟩) (iblk1 V c 1 ⟨n + 1, hn⟩) (acc1 c n (Nat.lt_of_succ_lt hn))

/-- At the first point of a run. -/
theorem acc1_reset (c : Dev nD) (t : Fin cfg1.N) (h0 : t.val % 4 = 0) :
    acc1 V c t.val t.isLt = step1 (grid1.coords t) (iblk1 V c 0 t) (iblk1 V c 1 t) (k1_pay1 (F := F)) := by
  obtain ⟨n, hn⟩ := t
  cases n with
  | zero => rfl
  | succ n => exact if_pos h0

/-- At every other point. -/
theorem acc1_step (c : Dev nD) (t : Fin cfg1.N) (h0 : ¬t.val % 4 = 0) :
    acc1 V c t.val t.isLt = step1 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact if_neg h0

/-- The scratch operand: a whole buffer of the kernel's own. -/
abbrev scM : Memref sig .tc .vmem S1024x32 .f32 := Memref.whole cc1_scratch0

/-- An assertion beside the first kernel's five staging buffers, which the second kernel never touches: each of
    them whole at some contents. -/
def withOthers (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S)

/-- Before the first point: those five, the scratch at anything, the generator register at some state. -/
theorem PhiA1_eq (c : Dev nD) :
    (Pipeline.ΦA spec1 c : sProp 𝕄)
      = iprop(withOthers c iprop(∃ d, owns (c : Thread nD τ) scM fullShare d) ∗ (∃ r, prngReg c r)) := by
  unfold Pipeline.ΦA withOthers; rw [scopedRest1_eq]; simp only [scM, owns_whole]; try rfl

/-- The second kernel's invariant before position n: before the first point every scoped buffer no window stages
    at anything; afterwards the scratch at what the point before left; the generator register at some state. -/
def PhiS (c : Dev nD) : (n : ℕ) → n ≤ cfg1.N → sProp 𝕄
  | 0, _ => Pipeline.ΦA spec1 c
  | n + 1, hn => iprop(iprop(
      withOthers c (owns (c : Thread nD τ) scM fullShare (acc1 V c n hn))) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(
      withOthers c (owns (c : Thread nD τ) scM fullShare (acc1 V c n hn))) ∗ (∃ r, prngReg c r)) := rfl

theorem PhiS_pos (c : Dev nD) (n : ℕ) (h : n ≤ cfg1.N) (hz : n ≠ 0) :
    PhiS V c n h = iprop(iprop(
      withOthers c (owns (c : Thread nD τ) scM fullShare (acc1 V c (n - 1) (by omega)))) ∗ (∃ r, prngReg c r)) := by
  cases n with
  | zero => exact absurd rfl hz
  | succ n => rfl

/-- The second kernel's data: inputs left in place, the output block at the scratch's contents (consulted only at
    the points that write it back), the invariant carrying the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end Cert.KernelIdeal.Hand

end
-- ==== Proof.KIBody0.lean ====
/-
  The first kernel's body at any grid point: it reads its two input blocks whole, and leaves in the output block
  its one product of them; the inputs, the invariant and what the core owes pass through untouched.
-/
import proofs.«145061_j50921132261911_2_alg».proof.Proof.KIData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input block is found in its staging buffer at every point, fetched there or not (a block not fetched has
    the index of the point before). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The whole-block rectangles the body loads and stores through. -/
abbrev rA : Rect S2048x256 := Rect.unit (s := S2048x256) ![0, 0] S2048x256.size inb_S2048x256_S2048x256_0_0
abbrev rB : Rect S256x32 := Rect.unit (s := S256x32) ![0, 0] S256x32.size inb_S256x32_S256x32_0_0
abbrev rC : Rect S2048x32 := Rect.unit (s := S2048x32) ![0, 0] S2048x32.size inb_S2048x32_S2048x32_0_0

/-- The one store covers the output block. -/
theorem cover0_2 (p0 : Vec F S2048x32 .f32) (y : S2048x32.Idx) :
    ∃ pc ∈ ([⟨rC, p0⟩] : List (View.Piece (Elt F) S2048x32 .f32)), y ∈ pc.1.set :=
  ⟨_, List.mem_singleton_self _, View.mem_set_unit_zero zeros2 inb_S2048x32_S2048x32_0_0 y⟩

/-- One covering store of the product of whole-block loads leaves the product of the blocks. -/
theorem stored0 (x0 : Vec F S2048x256 .f32) (x1 : Vec F S256x32 .f32) :
    View.canon [(⟨rC, k0_pay1 (View.ld x0 rA) (View.ld x1 rB)⟩ : View.Piece (Elt F) S2048x32 .f32)] = k0_pay1 x0 x1 := by
  rw [View.canon_unit_zero zeros2, View.ld_unit_zero zeros2, View.ld_unit_zero zeros2]

set_option maxHeartbeats 1000000 in
/-- The body on whole staging memrefs. -/
theorem sound_kernel0 (c : Dev nD) (E : Set ℕ) (arg1 : Memref sig .tc .vmem S2048x256 .f32) (harg1 : arg1.IsWhole)
    (arg2 : Memref sig .tc .vmem S256x32 .f32) (harg2 : arg2.IsWhole) (arg3 : Memref sig .tc .vmem S2048x32 .f32) (harg3 : arg3.IsWhole)
    (i : grid0.Coords) (x0 : Vec F S2048x256 .f32) (x1 : Vec F S256x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__hw_kernel i arg1 harg1 arg2 harg2 arg3 harg3) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  first
    | exact (stored0 _ _).symm.trans (View.read_writes_eq_canon _ _ _ (cover0_2 _)).symm
    | exact (stored0 _ _).symm.trans (View.read_writes_eq_canon _ _ _ (cover0_2 _))
    | exact ((View.read_writes_eq_canon _ _ _ (cover0_2 _)).trans (stored0 _ _)).symm
    | exact (View.read_writes_eq_canon _ _ _ (cover0_2 _)).trans (stored0 _ _)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first kernel, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  The second kernel's body at any grid point t = 4 i + k. Three control cases: k = 0 (the scratch is zeroed
  first), k = 1, 2 (neither branch), k = 3 (the scratch is copied to the output block at the end). In each the
  scratch ends at one reduction step over what it started from (the zero block at k = 0); the output block is
  left as found unless k = 3.
-/
import proofs.«145061_j50921132261911_2_alg».proof.Proof.KIData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions over the grid -/

/-- The first branch (zero the scratch) is taken. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second branch (copy the scratch out) is taken. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle; the output is idle, and not written back, exactly where k is not 3. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬t.val % 4 = 3 → cfg1.idle 2 (grid1.coords t) = true := by decide +kernel
theorem live1_2 : ∀ t : Fin cfg1.N, t.val % 4 = 3 → cfg1.idle 2 (grid1.coords t) = false := by decide +kernel
theorem noflush1_2 : ∀ t : Fin cfg1.N, ¬t.val % 4 = 3 → (cfg1.win 2).flush t = false :=
  (by decide +kernel : ∀ t : Fin grid1.N, ¬t.val % 4 = 3 → win1_2.flush t = false)

/-! ## The inputs' blocks -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body's accesses -/

abbrev rAdj : Rect S1024x2048 := Rect.unit (s := S1024x2048) ![0, 0] S1024x2048.size inb_S1024x2048_S1024x2048_0_0
abbrev rAcc : Rect S1024x32 := Rect.unit (s := S1024x32) ![0, 0] S1024x32.size inb_S1024x32_S1024x32_0_0

theorem coverAcc (L : List (View.Piece (Elt F) S1024x32 .f32)) (p0 : Vec F S1024x32 .f32) (y : S1024x32.Idx) :
    ∃ pc ∈ ((⟨rAcc, p0⟩ : View.Piece (Elt F) S1024x32 .f32) :: L), y ∈ pc.1.set :=
  ⟨_, List.mem_cons_self, View.mem_set_unit_zero zeros2 inb_S1024x32_S1024x32_0_0 y⟩

/-! ## The body's triple, case by case -/

set_option maxHeartbeats 2000000 in
/-- k = 0: the scratch, found at anything, ends at one step over the zero block. -/
theorem sound_kernel1_A (c : Dev nD) (E : Set ℕ) (arg2 : Memref sig .tc .vmem S1024x2048 .f32) (harg2 : arg2.IsWhole)
    (arg3 : Memref sig .tc .vmem S8192x32 .f32) (harg3 : arg3.IsWhole) (arg4 : Memref sig .tc .vmem S1024x32 .f32) (harg4 : arg4.IsWhole)
    (arg5 : Memref sig .tc .vmem S1024x32 .f32) (harg5 : arg5.IsWhole)
    (i : grid1.Coords) (hc0 : cond1_0 i) (hc1 : ¬cond1_1 i)
    (x0 : Vec F S1024x2048 .f32) (x1 : Vec F S8192x32 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (step1 i x0 x1 (k1_pay1 (F := F)))) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (fun y => coverAcc _ _ y), View.canon_cons_unit_zero (S := S1024x32) zeros2,
    View.readCov_unit_zero (S := S1024x32) _ zeros2]
  unfold step1
  simp only [View.readAt_eq_ld, View.ld_unit_zero (S := S1024x2048) zeros2]

set_option maxHeartbeats 2000000 in
/-- k = 1, 2: the scratch, found at xs, ends at one step over xs. -/
theorem sound_kernel1_B (c : Dev nD) (E : Set ℕ) (arg2 : Memref sig .tc .vmem S1024x2048 .f32) (harg2 : arg2.IsWhole)
    (arg3 : Memref sig .tc .vmem S8192x32 .f32) (harg3 : arg3.IsWhole) (arg4 : Memref sig .tc .vmem S1024x32 .f32) (harg4 : arg4.IsWhole)
    (arg5 : Memref sig .tc .vmem S1024x32 .f32) (harg5 : arg5.IsWhole)
    (i : grid1.Coords) (hc0 : ¬cond1_0 i) (hc1 : ¬cond1_1 i)
    (x0 : Vec F S1024x2048 .f32) (x1 : Vec F S8192x32 .f32) (xs : Vec F S1024x32 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (step1 i x0 x1 xs)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (fun y => coverAcc _ _ y), View.canon_unit_zero (S := S1024x32) zeros2]
  unfold step1
  simp only [View.readAt_eq_ld, View.ld_unit_zero (S := S1024x2048) zeros2, View.ld_unit_zero (S := S1024x32) zeros2]

set_option maxHeartbeats 2000000 in
/-- k = 3: the scratch, found at xs, ends at one step over xs, and the output block, found at anything, at the same. -/
theorem sound_kernel1_C (c : Dev nD) (E : Set ℕ) (arg2 : Memref sig .tc .vmem S1024x2048 .f32) (harg2 : arg2.IsWhole)
    (arg3 : Memref sig .tc .vmem S8192x32 .f32) (harg3 : arg3.IsWhole) (arg4 : Memref sig .tc .vmem S1024x32 .f32) (harg4 : arg4.IsWhole)
    (arg5 : Memref sig .tc .vmem S1024x32 .f32) (harg5 : arg5.IsWhole)
    (i : grid1.Coords) (hc0 : ¬cond1_0 i) (hc1 : cond1_1 i)
    (x0 : Vec F S1024x2048 .f32) (x1 : Vec F S8192x32 .f32) (xs : Vec F S1024x32 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (step1 i x0 x1 xs)
            ∗ owns (c : Thread nD τ) arg5 fullShare (step1 i x0 x1 xs)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (fun y => coverAcc _ _ y), View.canon_unit_zero (S := S1024x32) zeros2,
      View.readCov_unit_zero (S := S1024x32) _ zeros2]
    unfold step1
    simp only [View.readAt_eq_ld, View.ld_unit_zero (S := S1024x2048) zeros2, View.ld_unit_zero (S := S1024x32) zeros2]
  iexists _; isplitr
  swap; · iexact H5
  ipureintro
  sl_unfold_run_names
  rw [View.read_writes_eq_canon _ _ _ (fun y => coverAcc _ _ y), View.canon_unit_zero (S := S1024x32) zeros2]
  unfold step1
  simp only [View.readAt_eq_ld, View.ld_unit_zero (S := S1024x2048) zeros2, View.ld_unit_zero (S := S1024x32) zeros2]

/-! ## The body obligation -/

/-- The five untouched buffers ride beside whatever is said of the scratch. -/
theorem withOthers_mono (c : Dev nD) {S S' : sProp 𝕄} (h : S ⊢ S') : withOthers c S ⊢ withOthers c S' := by
  unfold withOthers
  iintro ⟨HA, HB, HC, HD, HE, HS⟩
  isplitl [HA]; · iexact HA
  isplitl [HB]; · iexact HB
  isplitl [HC]; · iexact HC
  isplitl [HD]; · iexact HD
  isplitl [HE]; · iexact HE
  iapply h; iexact HS

/-- The scratch's contents may be forgotten. -/
theorem withOthers_forget (c : Dev nD) (x : Vec F S1024x32 .f32) :
    withOthers c (owns (c : Thread nD τ) scM fullShare x) ⊢ withOthers c iprop(∃ d, owns (c : Thread nD τ) scM fullShare d) :=
  withOthers_mono c (by iintro HS; iexists x; iexact HS)

/-- What is said of the scratch, taken out from beside them, with the way back. -/
theorem withOthers_elim (c : Dev nD) (S : sProp 𝕄) :
    withOthers c S ⊢ iprop(S ∗ (∀ S' : sProp 𝕄, S' -∗ withOthers c S')) := by
  unfold withOthers
  iintro ⟨HA, HB, HC, HD, HE, HS⟩
  isplitl [HS]; · iexact HS
  iintro %S' HS'
  isplitl [HA]; · iexact HA
  isplitl [HB]; · iexact HB
  isplitl [HC]; · iexact HC
  isplitl [HD]; · iexact HD
  isplitl [HE]; · iexact HE
  iexact HS'

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  have hN : t.val < 32 := lt_of_lt_of_eq t.isLt (show cfg1.N = 32 from N_1)
  by_cases h3 : t.val % 4 = 3
  · have h0 : ¬t.val % 4 = 0 := by omega
    have hz : t.val ≠ 0 := by omega
    rw [show (dat1 V c).leavesExact 2 t = owns (c : Thread nD τ) (st1_2 t) fullShare ((dat1 V c).after 2 t) from by
      unfold Dat.leavesExact; rw [live1_2 t h3], after1_2]
    rw [acc1_step V c t h0, PhiS_castSucc V c t, PhiS_pos V c _ _ hz]
    iintro ⟨⟨HW, Hg⟩, Ho, ⟨%d0, H0⟩, ⟨%d1, H1⟩, ⟨%d2, H2⟩⟩
    ihave HW' := (withOthers_elim c _) $$ HW
    icases HW' with ⟨HS, Hback⟩
    iapply (sound_kernel1_C c Set.univ _ _ _ _ _ _ _ _ (grid1.coords t) (fun h => h0 ((hcond1_0 t).mp h)) ((hcond1_1 t).mpr h3)
      (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [Hback HS Hg]
    · isplitl [Hback HS]
      · iapply Hback; iexact HS
      iexact Hg
    isplitl [Ho]; · iexact Ho
    isplitl [H0]; · iexact H0
    isplitl [H1]; · iexact H1
    iexact H2
  · rw [Dat.leavesExact_idle (dat1 V c) 2 t (idle1_2 t h3) (noflush1_2 t h3)]
    by_cases h0 : t.val % 4 = 0
    · rw [acc1_reset V c t h0]
      have hfound : (dat1 V c).Φ t.castSucc ⊢ iprop(withOthers c iprop(∃ d, owns (c : Thread nD τ) scM fullShare d) ∗ (∃ r, prngReg c r)) := by
        rw [PhiS_castSucc V c t]
        by_cases hz : t.val = 0
        · rw [PhiS_zero V c _ _ hz, PhiA1_eq]
        · rw [PhiS_pos V c _ _ hz]
          exact sep_mono (withOthers_forget c _) .rfl
      iintro ⟨HΦ, Ho, ⟨%d0, H0⟩, ⟨%d1, H1⟩, ⟨%d2, H2⟩⟩
      ihave HΦ' := hfound $$ HΦ
      icases HΦ' with ⟨HW, Hg⟩
      ihave HW' := (withOthers_elim c _) $$ HW
      icases HW' with ⟨HS, Hback⟩
      iapply (sound_kernel1_A c Set.univ _ _ _ _ _ _ _ _ (grid1.coords t) ((hcond1_0 t).mpr h0) (fun h => h3 ((hcond1_1 t).mp h))
        (iblk1 V c 0 t) (iblk1 V c 1 t) _)
      isplitl [H0]; · iexact H0
      isplitl [H1]; · iexact H1
      isplitl [HS]; · iexact HS
      iintro ⟨H0, H1, HS⟩
      isplitl [Hback HS Hg]
      · isplitl [Hback HS]
        · iapply Hback; iexact HS
        iexact Hg
      isplitl [Ho]; · iexact Ho
      isplitl [H0]; · iexact H0
      isplitl [H1]; · iexact H1
      iexists _; iexact H2
    · have hz : t.val ≠ 0 := by omega
      rw [acc1_step V c t h0, PhiS_castSucc V c t, PhiS_pos V c _ _ hz]
      iintro ⟨⟨HW, Hg⟩, Ho, ⟨%d0, H0⟩, ⟨%d1, H1⟩, ⟨%d2, H2⟩⟩
      ihave HW' := (withOthers_elim c _) $$ HW
      icases HW' with ⟨HS, Hback⟩
      iapply (sound_kernel1_B c Set.univ _ _ _ _ _ _ _ _ (grid1.coords t) (fun h => h0 ((hcond1_0 t).mp h)) (fun h => h3 ((hcond1_1 t).mp h))
        (iblk1 V c 0 t) (iblk1 V c 1 t) _ _)
      isplitl [H0]; · iexact H0
      isplitl [H1]; · iexact H1
      isplitl [HS]; · iexact HS
      iintro ⟨H0, H1, HS⟩
      isplitl [Hback HS Hg]
      · isplitl [Hback HS]
        · iapply Hback; iexact HS
        iexact Hg
      isplitl [Ho]; · iexact Ho
      isplitl [H0]; · iexact H0
      isplitl [H1]; · iexact H1
      iexists _; iexact H2

/-- The body obligation of the second kernel, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole program: the two kernels one after the other. Between them the core holds every unscoped buffer at
  known contents: the launch contents; then, after the first kernel, its output array at what its write-backs
  leave and everything else as before; then the same for the second kernel. Read at the end, the result array
  holds what the second kernel's write-backs leave, and the three argument arrays hold their launch contents: no
  kernel writes an array it only reads.
-/
import proofs.«145061_j50921132261911_2_alg».proof.Proof.KIBody0
import proofs.«145061_j50921132261911_2_alg».proof.Proof.KIBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m (c, b)
abbrev Vr0 : (c : Dev nD) → (b : Ref sig .tc) → Buf (Elt F) ((c : Thread nD τ).loc b) := fun c b => W0 m c b
/-- After the first kernel: its arrays at what the pipeline leaves, every other buffer as before. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- After the second kernel. -/
def W2 (c : Dev nD) : Valuation τ sig (Elt F) :=
  Pipeline.withArrays spec1 c (W1 m c) fun w => (dat1 (Vr1 m) c).arrAt w cfg1.N
theorem W2_arr (c : Dev nD) (w : Fin cfg1.W) :
    W2 m c (Proc.devRef .tc (Pipeline.arrRef spec1 w)) = (dat1 (Vr1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vr2 : (c : Dev nD) → (b : Ref sig .tc) → Buf (Elt F) ((c : Thread nD τ).loc b) := fun c b => W2 m c b
theorem hF1 (c : Dev nD) (w : Fin cfg1.W) : (dat1 (Vr1 m) c).arrAt w cfg1.N = Vr2 m c (Pipeline.arrRef spec1 w) :=
  (W2_arr m c w).symm
theorem hrest1 (c : Dev nD) : ∀ b, b ∉ Finset.univ.image (Pipeline.arrRef spec1) → Vr2 m c b = Vr1 m c b :=
  fun b hb => W2_of_ne m c b fun w e => hb (Finset.mem_image.mpr ⟨w, Finset.mem_univ _, e⟩)

/-! ## The arguments end as launched, the result at the second kernel's write-backs -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (Vr0 m) c).arrAt_in 0 rfl _).trans (A_eq0 (Vr0 m) c 0))
    _ = m ((c : Thread nD τ).loc main_arg0) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (Vr0 m) c).arrAt_in 1 rfl _).trans (A_eq0 (Vr0 m) c 1))
    _ = m ((c : Thread nD τ).loc main_arg2) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((dat1 (Vr1 m) c).arrAt_in 0 rfl _).trans (A_eq1 (Vr1 m) c 0))
    _ = W0 m c (Proc.devRef .tc main_arg1) := W1_of_ne m c main_arg1 (by decide)
    _ = m ((c : Thread nD τ).loc main_arg1) := rfl
theorem W2_main_v1 (c : Dev nD) : W2 m c (Proc.devRef .tc main_v1) = (dat1 (Vr1 m) c).arrAt 2 cfg1.N :=
  W2_arr m c 2
/-- What the second kernel finds in its resident operand: the first kernel's result array. -/
theorem Vr1_main_v0 (c : Dev nD) : Vr1 m c main_v0 = (dat0 (Vr0 m) c).arrAt 2 cfg0.N := W1_arr m c 2
/-- And in the adjacency array: its launch contents. -/
theorem Vr1_main_arg1 (c : Dev nD) : Vr1 m c main_arg1 = m ((c : Thread nD τ).loc main_arg1) :=
  W1_of_ne m c main_arg1 (by decide)

/-! ## The proof data family and the thread state -/

abbrev adm : (p : Fin 2) → (pcfgs (F := F) p).Adm := fun p => (cfgs p).toPCfg_adm
/-- Both pipelines' data, each at its kernel's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- Beside the buffers: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The kernels as segments -/

set_option backward.isDefEq.respectTransparency.types false in
/-- The first kernel: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After its last point the second kernel's invariant gives the scoped rest back: the scratch's contents forgotten. -/
theorem Phi1_out (c : Dev nD) : (dat1 (Vr1 m) c).Φ (Fin.last cfg1.N) ⊢ Pipeline.ΦA spec1 c := by
  rw [show (dat1 (Vr1 m) c).Φ (Fin.last cfg1.N) = PhiS (Vr1 m) c (Fin.last cfg1.N).val (Nat.le_of_lt_succ (Fin.last cfg1.N).isLt) from rfl,
    PhiS_pos (Vr1 m) c _ _ (by rw [Fin.val_last]; have : cfg1.N = 32 := N_1; omega), PhiA1_eq]
  unfold withOthers
  iintro ⟨⟨HA, HB, HC, HD, HE, HS⟩, Hg⟩
  isplitl [HA HB HC HD HE HS]
  · isplitl [HA]; · iexact HA
    isplitl [HB]; · iexact HB
    isplitl [HC]; · iexact HC
    isplitl [HD]; · iexact HD
    isplitl [HE]; · iexact HE
    iexists _; iexact HS
  iexact Hg

set_option backward.isDefEq.respectTransparency.types false in
/-- The second kernel: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_out m c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- Every weakly fair execution of the program terminates, nothing faulting; at the end the result array holds
    what the second kernel's write-backs leave and each argument array its launch contents. -/
theorem run_main : θ_run defs (onTc (τ := τ) (main (F := F))) ⟨m, fun _ => 0, ρ⟩ (fun r => ∀ c : Dev nD,
      r.2.mem ((c.tc : Thread nD τ).loc main_v1) = (dat1 (Vr1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c)⟩)

end Cert.KernelIdeal.Hand

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.KIValue0.lean ====
/-
  Over the extended reals the first kernel's result array is the product of the feature matrix with the weight
  matrix: point t writes back rows 2048 t .. 2048 t + 2047, each entry the inner product of a row of the feature
  block with a column of the weights, and the four blocks tile the array.
-/
import proofs.«145061_j50921132261911_2_alg».proof.Proof.KIData
import proofs.«145061_j50921132261911_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The product of an [8192, 256] array with a [256, 32] array, entry by entry. -/
def HW (h : FVec Ideal S8192x256 .f32) (w : FVec Ideal S256x32 .f32) : FVec Ideal S8192x32 .f32 :=
  fun i => ∑ j : Fin 256, h (ix2 (⟨(i 0).val, (i 0).isLt⟩ : Fin 8192) j) * w (ix2 j (⟨(i 1).val, (i 1).isLt⟩ : Fin 32))

/-- The body's product at an entry: row p of the left block against column q of the right one. -/
theorem pay1_apply (x0 : FVec Ideal S2048x256 .f32) (x1 : FVec Ideal S256x32 .f32) (p : Fin 2048) (q : Fin 32) :
    k0_pay1 (F := Ideal) x0 x1 (ix2 p q) = ∑ j : Fin 256, x0 (ix2 p j) * x1 (ix2 j q) := by
  unfold k0_pay1
  exact Cert.MatmulNN.matmul_zero_apply dot_S2048x256_S256x32_S2048x32_1_0_0_1_n_n rfl none _ _ p q

/-- Where the windows' blocks sit at point t: block t of the rows for the features and the result, the whole of the
    weights. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at t, entry (p, j): row 2048 t + p of the array. -/
theorem iblk0_0_apply (c : Dev nD) (t : Fin cfg0.N) (p : Fin 2048) (j : Fin 256) (r : Fin 8192) (hr : r.val = t.val * 2048 + p.val) :
    (iblk0 V c 0 t : FVec Ideal S2048x256 .f32) (ix2 p j) = V c main_arg0 (ix2 r j) := by
  obtain ⟨e0, e1, -⟩ := idx0 t
  unfold iblk0
  rw [View.read_apply]
  show V c main_arg0 _ = V c main_arg0 _
  refine congrArg _ ?_
  funext a; apply Fin.ext
  match a with
  | ⟨0, _⟩ => show win0_0.index t (0 : Fin 2) * 2048 + 1 * p.val = r.val; omega
  | ⟨1, _⟩ => show win0_0.index t (1 : Fin 2) * 256 + 1 * j.val = j.val; omega

/-- The weight block at any point is the whole array. -/
theorem iblk0_1_apply (c : Dev nD) (t : Fin cfg0.N) (j : Fin 256) (q : Fin 32) :
    (iblk0 V c 1 t : FVec Ideal S256x32 .f32) (ix2 j q) = V c main_arg2 (ix2 j q) := by
  obtain ⟨-, -, e2, e3, -⟩ := idx0 t
  unfold iblk0
  rw [View.read_apply]
  show V c main_arg2 _ = V c main_arg2 _
  refine congrArg _ ?_
  funext a; apply Fin.ext
  match a with
  | ⟨0, _⟩ => show win0_1.index t (0 : Fin 2) * 256 + 1 * j.val = j.val; omega
  | ⟨1, _⟩ => show win0_1.index t (1 : Fin 2) * 32 + 1 * q.val = q.val; omega

/-- What point t writes back is block t of the product of the two arrays as the kernel finds them. -/
theorem flushed0 (c : Dev nD) (t : Fin cfg0.N) :
    (dat0 V c).flushed 2 t = ((cfg0.win 2).blk t).view.read (Elt Ideal) (HW (V c main_arg0) (V c main_arg2)) := by
  show (cfg0.win 2).cut (grid0.coords t) ((dat0 V c).after 2 t) = _
  rw [after0_2]
  obtain ⟨-, -, -, -, e4, e5⟩ := idx0 t
  have hN : t.val < 4 := lt_of_lt_of_eq t.isLt (show cfg0.N = 4 from N_0)
  funext y
  obtain ⟨p, q, rfl⟩ : ∃ (p : Fin 2048) (q : Fin 32), y = ix2 p q := ⟨y 0, y 1, eq_ix2 y⟩
  rw [View.read_apply]
  show k0_pay1 (F := Ideal) (iblk0 V c 0 t) (iblk0 V c 1 t) (ix2 p q) = HW (V c main_arg0) (V c main_arg2) (((cfg0.win 2).blk t).view.emb (ix2 p q))
  have hp : p.val < 2048 := p.isLt
  have e : ((cfg0.win 2).blk t).view.emb (ix2 p q) = ix2 (⟨t.val * 2048 + p.val, by omega⟩ : Fin 8192) q := by
    funext a; apply Fin.ext
    match a with
    | ⟨0, _⟩ => show win0_2.index t (0 : Fin 2) * 2048 + 1 * p.val = t.val * 2048 + p.val; omega
    | ⟨1, _⟩ => show win0_2.index t (1 : Fin 2) * 32 + 1 * q.val = q.val; omega
  rw [e, pay1_apply]
  unfold HW
  refine Finset.sum_congr rfl fun j _ => ?_
  rw [iblk0_0_apply V c t p j ⟨t.val * 2048 + p.val, by omega⟩ rfl, iblk0_1_apply]

/-- An index is in point t's block of the result array iff its coordinates are in the block's ranges. -/
theorem mem_blk0 (t : Fin cfg0.N) (i : S8192x32.Idx) :
    i ∈ ((cfg0.win 2).blk t).view.set ↔ ∀ a : Fin 2, win0_2.index t a * S2048x32.size a ≤ (i a).val ∧ (i a).val < win0_2.index t a * S2048x32.size a + S2048x32.size a := by
  show i ∈ ((View.whole main_v0).slice (win0_2.rect t)).set ↔ _
  rw [View.set_slice_whole, Rect.mem_set_unit]
  exact Iff.rfl

/-- The first kernel's result array: the product of the two arrays as it finds them. -/
theorem final0 (c : Dev nD) : (dat0 V c).arrAt 2 cfg0.N = HW (V c main_arg0) (V c main_arg2) :=
  (dat0 V c).arrAt_eq_of_cover 2 _ (fun t _ => flushed0 V c t) fun i => by
    have h0 : (i 0).val < 8192 := (i 0).isLt
    have h1 : (i 1).val < 32 := (i 1).isLt
    have hN : cfg0.N = 4 := N_0
    refine ⟨⟨(i 0).val / 2048, by rw [hN]; omega⟩, flush0_2 _, ?_⟩
    rw [mem_blk0]
    obtain ⟨-, -, -, -, e4, e5⟩ := idx0 ⟨(i 0).val / 2048, by rw [hN]; omega⟩
    intro a
    match a with
    | ⟨0, _⟩ =>
      show win0_2.index _ (0 : Fin 2) * 2048 ≤ (i 0).val ∧ (i 0).val < win0_2.index _ (0 : Fin 2) * 2048 + 2048
      rw [e4]; dsimp only; omega
    | ⟨1, _⟩ =>
      show win0_2.index _ (1 : Fin 2) * 32 ≤ (i 1).val ∧ (i 1).val < win0_2.index _ (1 : Fin 2) * 32 + 32
      rw [e5]; omega

end Cert.KernelIdeal.Hand

end
-- ==== Proof.KIValue1.lean ====
/-
  Over the extended reals the second kernel's result array is the product of the adjacency array with the array it
  finds in its resident operand. Row block i is written back once, at the last of its four reduction steps; by then
  the scratch holds the zero block plus, for each step s = 0 .. 3, the product of the adjacency block (i, s) with
  rows 2048 s .. 2048 s + 2047 of the operand: the four partial sums together run over all 8192 columns. Sums of
  extended reals may be regrouped freely (addition is commutative and associative there), so no finiteness is used.
-/
import proofs.«145061_j50921132261911_2_alg».proof.Proof.KIData
import proofs.«145061_j50921132261911_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The product of an [8192, 8192] array with an [8192, 32] array, entry by entry. -/
def AH (adj : FVec Ideal S8192x8192 .f32) (hw : FVec Ideal S8192x32 .f32) : FVec Ideal S8192x32 .f32 :=
  fun i => ∑ k : Fin 8192, adj (ix2 (⟨(i 0).val, (i 0).isLt⟩ : Fin 8192) k) * hw (ix2 k (⟨(i 1).val, (i 1).isLt⟩ : Fin 32))

/-! ## The body's arithmetic at an entry -/

/-- The zero block. -/
theorem pay1z_apply (p : Fin 1024) (q : Fin 32) : k1_pay1 (F := Ideal) (ix2 p q) = 0 := by
  unfold k1_pay1
  simp only [shapeCast_self]
  exact Ideal.ofBits_zero_f32

/-- One accumulation: the accumulator's entry plus row p of the left block against column q of the right one. -/
theorem pay2_apply (x3 : FVec Ideal S1024x2048 .f32) (x8 : FVec Ideal S2048x32 .f32) (x11 : FVec Ideal S1024x32 .f32)
    (p : Fin 1024) (q : Fin 32) :
    k1_pay2 (F := Ideal) x3 x8 x11 (ix2 p q) = x11 (ix2 p q) + ∑ k : Fin 2048, x3 (ix2 p k) * x8 (ix2 k q) := by
  unfold k1_pay2
  simp only [shapeCast_self]
  refine (ValueIdx.addf_apply _ _ _).trans (congrArg (x11 (ix2 p q) + ·) ?_)
  exact Cert.MatmulNN.matmul_zero_apply dot_S1024x2048_S2048x32_S1024x32_1_0_0_1_n_n rfl none _ _ p q

/-- One reduction step at an entry. -/
theorem step1_apply (i : grid1.Coords) (x0 : Vec Ideal S1024x2048 .f32) (x1 : Vec Ideal S8192x32 .f32)
    (a : Vec Ideal S1024x32 .f32) (p : Fin 1024) (q : Fin 32) :
    step1 (F := Ideal) i x0 x1 a (ix2 p q)
      = a (ix2 p q) + ∑ k : Fin 2048, x0 (ix2 p k) * View.ld (Val := Elt Ideal) (e' := .f32) x1 (slabRect i) (ix2 k q) := by
  unfold step1
  exact pay2_apply _ _ _ p q

/-! ## The scratch as a sum of the steps' products -/

/-- The adjacency block and the resident operand at a point, as arrays of extended reals. -/
abbrev adjBlk (c : Dev nD) (t : Fin cfg1.N) : Vec Ideal S1024x2048 .f32 := iblk1 V c 0 t
abbrev hwAll (c : Dev nD) (t : Fin cfg1.N) : Vec Ideal S8192x32 .f32 := iblk1 V c 1 t

/-- The product point n adds to the scratch, at entry (p, q) (zero past the grid). -/
def blockSum (c : Dev nD) (n : ℕ) (p : Fin 1024) (q : Fin 32) : Ideal .f32 :=
  if h : n < cfg1.N then
    ∑ k : Fin 2048, adjBlk V c ⟨n, h⟩ (ix2 p k)
      * View.ld (Val := Elt Ideal) (e' := .f32) (hwAll V c ⟨n, h⟩) (slabRect (grid1.coords ⟨n, h⟩)) (ix2 k q)
  else 0

/-- After point n the scratch holds the products of the run's points so far: those from 4 (n / 4) to n. -/
theorem acc1_apply (c : Dev nD) : ∀ (n : ℕ) (hn : n < cfg1.N) (p : Fin 1024) (q : Fin 32),
    acc1 V c n hn (ix2 p q) = ∑ s ∈ Finset.range (n % 4 + 1), blockSum V c (4 * (n / 4) + s) p q
  | 0, hn, p, q => by
    rw [show acc1 V c 0 hn = step1 (grid1.coords ⟨0, hn⟩) (iblk1 V c 0 ⟨0, hn⟩) (iblk1 V c 1 ⟨0, hn⟩) (k1_pay1 (F := Ideal)) from rfl,
      step1_apply, pay1z_apply, zero_add]
    simp only [Nat.zero_mod, Nat.zero_div, Nat.mul_zero, Nat.zero_add, Finset.sum_range_one]
    unfold blockSum; rw [dif_pos hn]
  | n + 1, hn, p, q => by
    by_cases h0 : (n + 1) % 4 = 0
    · rw [show acc1 V c (n + 1) hn = step1 (grid1.coords ⟨n + 1, hn⟩) (iblk1 V c 0 ⟨n + 1, hn⟩) (iblk1 V c 1 ⟨n + 1, hn⟩) (k1_pay1 (F := Ideal)) from if_pos h0,
        step1_apply, pay1z_apply, zero_add, h0]
      simp only [Nat.zero_add, Finset.sum_range_one, Nat.add_zero]
      rw [show 4 * ((n + 1) / 4) = n + 1 by omega]
      unfold blockSum; rw [dif_pos hn]
    · rw [show acc1 V c (n + 1) hn = step1 (grid1.coords ⟨n + 1, hn⟩) (iblk1 V c 0 ⟨n + 1, hn⟩) (iblk1 V c 1 ⟨n + 1, hn⟩) (acc1 V c n (Nat.lt_of_succ_lt hn)) from if_neg h0,
        step1_apply, acc1_apply c n (Nat.lt_of_succ_lt hn) p q]
      rw [show (n + 1) % 4 + 1 = (n % 4 + 1) + 1 by omega, show (n + 1) / 4 = n / 4 by omega,
        Finset.sum_range_succ (fun s => blockSum V c (4 * (n / 4) + s) p q) (n % 4 + 1),
        show 4 * (n / 4) + (n % 4 + 1) = n + 1 by omega]
      refine congrArg (_ + ·) ?_
      unfold blockSum; rw [dif_pos hn]

/-! ## The blocks the second kernel reads -/

/-- Where the windows' blocks sit at point t = 4 i + k: block (i, k) of the adjacency array, the whole resident
    operand, row block i of the result; and the slab's first row. -/
theorem idx1 : ∀ t : Fin cfg1.N, win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ k1_off1 (grid1.coords t) (0 : Fin 2) = t.val % 4 * 2048 ∧ k1_off1 (grid1.coords t) (1 : Fin 2) = 0 :=
  (by decide +kernel : ∀ t : Fin grid1.N, _)

theorem iblk1_0_apply (c : Dev nD) (t : Fin cfg1.N) (p : Fin 1024) (k : Fin 2048) (r s : Fin 8192)
    (hr : r.val = t.val / 4 * 1024 + p.val) (hs : s.val = t.val % 4 * 2048 + k.val) :
    adjBlk V c t (ix2 p k) = V c main_arg1 (ix2 r s) := by
  obtain ⟨e0, e1, -⟩ := idx1 t
  unfold adjBlk iblk1
  rw [View.read_apply]
  show V c main_arg1 _ = V c main_arg1 _
  refine congrArg _ ?_
  funext a; apply Fin.ext
  match a with
  | ⟨0, _⟩ => show win1_0.index t (0 : Fin 2) * 1024 + 1 * p.val = r.val; omega
  | ⟨1, _⟩ => show win1_0.index t (1 : Fin 2) * 2048 + 1 * k.val = s.val; omega

theorem slab_apply (c : Dev nD) (t : Fin cfg1.N) (k : Fin 2048) (q : Fin 32) (s : Fin 8192)
    (hs : s.val = t.val % 4 * 2048 + k.val) :
    View.ld (Val := Elt Ideal) (e' := .f32) (hwAll V c t) (slabRect (grid1.coords t)) (ix2 k q) = V c main_v0 (ix2 s q) := by
  obtain ⟨-, -, e2, e3, -, -, o0, o1⟩ := idx1 t
  show hwAll V c t ((slabRect (grid1.coords t)).idx (ix2 k q)) = _
  unfold hwAll iblk1
  rw [View.read_apply]
  show V c main_v0 _ = V c main_v0 _
  refine congrArg _ ?_
  funext a; apply Fin.ext
  match a with
  | ⟨0, _⟩ => show win1_1.index t (0 : Fin 2) * 8192 + 1 * (k1_off1 (grid1.coords t) (0 : Fin 2) + 1 * k.val) = s.val; omega
  | ⟨1, _⟩ => show win1_1.index t (1 : Fin 2) * 32 + 1 * (k1_off1 (grid1.coords t) (1 : Fin 2) + 1 * q.val) = q.val; omega

/-- A sum over 8192 columns is the sum, over four runs of 2048 columns, of the runs' sums. -/
theorem sum_blocks (f : Fin 8192 → EReal) :
    ∑ k : Fin 8192, f k = ∑ s : Fin 4, ∑ k' : Fin 2048, f ⟨s.val * 2048 + k'.val, by have := s.isLt; have := k'.isLt; omega⟩ := by
  rw [← Fintype.sum_prod_type']
  refine (Fintype.sum_equiv (finProdFinEquiv (m := 4) (n := 2048)) _ _ fun x => ?_).symm
  refine congrArg f (Fin.ext ?_)
  show x.1.val * 2048 + x.2.val = x.2.val + 2048 * x.1.val
  omega

/-- At the last step of row block i the scratch holds row block i of the product. -/
theorem acc1_flush (c : Dev nD) (t : Fin cfg1.N) (h3 : t.val % 4 = 3) (p : Fin 1024) (q : Fin 32) (r : Fin 8192)
    (hr : r.val = t.val / 4 * 1024 + p.val) :
    acc1 V c t.val t.isLt (ix2 p q) = AH (V c main_arg1) (V c main_v0) (ix2 r q) := by
  have hN : t.val < 32 := lt_of_lt_of_eq t.isLt (show cfg1.N = 32 from N_1)
  rw [acc1_apply, show t.val % 4 + 1 = 4 by omega, Finset.sum_range]
  unfold AH
  rw [sum_blocks]
  refine Finset.sum_congr rfl fun s _ => ?_
  have hs : s.val < 4 := s.isLt
  have hlt : 4 * (t.val / 4) + s.val < cfg1.N := lt_of_lt_of_eq (by omega : 4 * (t.val / 4) + s.val < 32) N_1.symm
  unfold blockSum
  rw [dif_pos hlt]
  refine Finset.sum_congr rfl fun k _ => ?_
  have hk : k.val < 2048 := k.isLt
  rw [iblk1_0_apply V c ⟨4 * (t.val / 4) + s.val, hlt⟩ p k r ⟨s.val * 2048 + k.val, by omega⟩
      (by show r.val = (4 * (t.val / 4) + s.val) / 4 * 1024 + p.val; omega)
      (by show s.val * 2048 + k.val = (4 * (t.val / 4) + s.val) % 4 * 2048 + k.val; omega),
    slab_apply V c ⟨4 * (t.val / 4) + s.val, hlt⟩ k q ⟨s.val * 2048 + k.val, by omega⟩
      (by show s.val * 2048 + k.val = (4 * (t.val / 4) + s.val) % 4 * 2048 + k.val; omega)]
  try rfl

/-! ## The result array -/

/-- What a point that writes back writes is its block of the product of the two arrays as the kernel finds them. -/
theorem flushed1 (c : Dev nD) (t : Fin cfg1.N) (hf : (cfg1.win 2).flush t = true) :
    (dat1 V c).flushed 2 t = ((cfg1.win 2).blk t).view.read (Elt Ideal) (AH (V c main_arg1) (V c main_v0)) := by
  have h3 : t.val % 4 = 3 := (flush1_2 t).mp hf
  show (cfg1.win 2).cut (grid1.coords t) ((dat1 V c).after 2 t) = _
  rw [after1_2]
  obtain ⟨-, -, -, -, e4, e5, -, -⟩ := idx1 t
  have hN : t.val < 32 := lt_of_lt_of_eq t.isLt (show cfg1.N = 32 from N_1)
  funext y
  obtain ⟨p, q, rfl⟩ : ∃ (p : Fin 1024) (q : Fin 32), y = ix2 p q := ⟨y 0, y 1, eq_ix2 y⟩
  rw [View.read_apply]
  show acc1 V c t.val t.isLt (ix2 p q) = AH (V c main_arg1) (V c main_v0) (((cfg1.win 2).blk t).view.emb (ix2 p q))
  have hp : p.val < 1024 := p.isLt
  have e : ((cfg1.win 2).blk t).view.emb (ix2 p q) = ix2 (⟨t.val / 4 * 1024 + p.val, by omega⟩ : Fin 8192) q := by
    funext a; apply Fin.ext
    match a with
    | ⟨0, _⟩ => show win1_2.index t (0 : Fin 2) * 1024 + 1 * p.val = t.val / 4 * 1024 + p.val; omega
    | ⟨1, _⟩ => show win1_2.index t (1 : Fin 2) * 32 + 1 * q.val = q.val; omega
  rw [e, acc1_flush V c t h3 p q ⟨t.val / 4 * 1024 + p.val, by omega⟩ rfl]

theorem mem_blk1 (t : Fin cfg1.N) (i : S8192x32.Idx) :
    i ∈ ((cfg1.win 2).blk t).view.set ↔ ∀ a : Fin 2, win1_2.index t a * S1024x32.size a ≤ (i a).val ∧ (i a).val < win1_2.index t a * S1024x32.size a + S1024x32.size a := by
  show i ∈ ((View.whole main_v1).slice (win1_2.rect t)).set ↔ _
  rw [View.set_slice_whole, Rect.mem_set_unit]
  exact Iff.rfl

/-- The second kernel's result array: the product of the adjacency array with the resident operand, as it finds them. -/
theorem final1 (c : Dev nD) : (dat1 V c).arrAt 2 cfg1.N = AH (V c main_arg1) (V c main_v0) :=
  (dat1 V c).arrAt_eq_of_cover 2 _ (fun t hf => flushed1 V c t hf) fun i => by
    have h0 : (i 0).val < 8192 := (i 0).isLt
    have h1 : (i 1).val < 32 := (i 1).isLt
    have hN : cfg1.N = 32 := N_1
    have hlt : 4 * ((i 0).val / 1024) + 3 < cfg1.N := by rw [hN]; omega
    refine ⟨⟨4 * ((i 0).val / 1024) + 3, hlt⟩, (flush1_2 _).mpr (by show (4 * ((i 0).val / 1024) + 3) % 4 = 3; omega), ?_⟩
    rw [mem_blk1]
    obtain ⟨-, -, -, -, e4, e5, -, -⟩ := idx1 ⟨4 * ((i 0).val / 1024) + 3, hlt⟩
    intro a
    match a with
    | ⟨0, _⟩ =>
      show win1_2.index _ (0 : Fin 2) * 1024 ≤ (i 0).val ∧ (i 0).val < win1_2.index _ (0 : Fin 2) * 1024 + 1024
      rw [e4]; dsimp only; omega
    | ⟨1, _⟩ =>
      show win1_2.index _ (1 : Fin 2) * 32 ≤ (i 1).val ∧ (i 1).val < win1_2.index _ (1 : Fin 2) * 32 + 32
      rw [e5]; omega

end Cert.KernelIdeal.Hand

end
-- ==== Proof.KIValue.lean ====
/-
  Over the extended reals the program's result array is the adjacency matrix times (the feature matrix times the
  weights): the second kernel's product of what it finds, which in its resident operand is the first kernel's
  product and in the adjacency array the launch contents.
-/
import proofs.«145061_j50921132261911_2_alg».proof.Proof.KIRun
import proofs.«145061_j50921132261911_2_alg».proof.Proof.KIValue0
import proofs.«145061_j50921132261911_2_alg».proof.Proof.KIValue1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

theorem kernel_value (c : Dev nD) :
    (dat1 (Vr1 m) c).arrAt 2 cfg1.N
      = AH (m ((c.tc : Thread nD τ).loc main_arg1)) (HW (m ((c.tc : Thread nD τ).loc main_arg0)) (m ((c.tc : Thread nD τ).loc main_arg2))) := by
  rw [final1 (Vr1 m) c, Vr1_main_arg1 m c, Vr1_main_v0 m c, final0 (Vr0 m) c]

end Cert.KernelIdeal.Hand

end
-- ==== Proof.RefValue.lean ====
/-
  The reference computes the same two products: its first matrix product is the feature matrix times the
  weights, entry by entry an inner product over the 256 features, and its second the adjacency matrix times
  that, an inner product over the 8192 nodes.
-/
import proofs.«145061_j50921132261911_2_alg».proof.Proof.Gen.ReferenceIdeal.Read
import proofs.«145061_j50921132261911_2_alg».proof.Proof.KIValue0
import proofs.«145061_j50921132261911_2_alg».proof.Proof.KIValue1

noncomputable section

namespace Cert.ReferenceIdeal.RefValue

open Cert.ReferenceIdeal Cert.ReferenceIdeal.Read
open Idealize.ShloMosaic Idealize.ShloMosaic.ValueIdx

/-- The reference's first product is the specification's. -/
theorem first_eq (x0 : (⟨S8192x256, .f32⟩ : BufTy).Contents (Elt Ideal)) (x2 : (⟨S256x32, .f32⟩ : BufTy).Contents (Elt Ideal)) :
    val_main_v0 (F := Ideal) x0 x2 = Cert.KernelIdeal.Hand.HW x0 x2 := by
  funext i
  rw [val_main_v0_apply]
  unfold Cert.KernelIdeal.Hand.HW
  refine Finset.sum_congr rfl fun j _ => ?_
  have el : lidx_main_v0 i j = ix2 (⟨(i 0).val, (i 0).isLt⟩ : Fin 8192) j :=
    funext fun a => Fin.ext (by match a with | ⟨0, _⟩ => rfl | ⟨1, _⟩ => rfl)
  have er : ridx_main_v0 i j = ix2 j (⟨(i 1).val, (i 1).isLt⟩ : Fin 32) :=
    funext fun a => Fin.ext (by match a with | ⟨0, _⟩ => rfl | ⟨1, _⟩ => rfl)
  rw [el, er]

/-- The reference's result is the specification's. -/
theorem result_eq (x0 : (⟨S8192x256, .f32⟩ : BufTy).Contents (Elt Ideal)) (x1 : (⟨S8192x8192, .f32⟩ : BufTy).Contents (Elt Ideal))
    (x2 : (⟨S256x32, .f32⟩ : BufTy).Contents (Elt Ideal)) :
    val_main_v1 (F := Ideal) x0 x1 x2 = Cert.KernelIdeal.Hand.AH x1 (Cert.KernelIdeal.Hand.HW x0 x2) := by
  funext i
  rw [val_main_v1_apply, first_eq]
  unfold Cert.KernelIdeal.Hand.AH
  refine Finset.sum_congr rfl fun k _ => ?_
  have el : lidx_main_v1 i k = ix2 (⟨(i 0).val, (i 0).isLt⟩ : Fin 8192) k :=
    funext fun a => Fin.ext (by match a with | ⟨0, _⟩ => rfl | ⟨1, _⟩ => rfl)
  have er : ridx_main_v1 i k = ix2 k (⟨(i 1).val, (i 1).isLt⟩ : Fin 32) :=
    funext fun a => Fin.ext (by match a with | ⟨0, _⟩ => rfl | ⟨1, _⟩ => rfl)
  rw [el, er]

end Cert.ReferenceIdeal.RefValue

end
-- ==== Proof.lean ====
/-
  The claim: both printings of the kernel program run to the end, fault nowhere and leave their arguments as
  launched; the idealized printing is the program's own text (the ideal pass rewrote nothing); and over the
  extended reals the kernel program and the reference end with the same result array,

      out[i, q] = Σ_{k < 8192} adj[i, k] · (Σ_{j < 256} h[k, j] · W[j, q]).

  The kernel program computes it in two kernels. The first writes h · W block by block (2048 rows at a point).
  The second, for each block of 1024 rows of adj, accumulates in a scratch block the products of the four
  [1024, 2048] blocks of adj with the matching 2048 rows of h · W, starting from zero, and writes the scratch out
  after the fourth: the four partial inner products together are the whole one, since sums of extended reals may
  be regrouped. A change of float format is the identity there, so rounding the factors to bf16 changes nothing.
  No finiteness of the inputs is needed.
-/
import proofs.«145061_j50921132261911_2_alg».proof.Defs
import proofs.«145061_j50921132261911_2_alg».proof.Proof.Gen.Kernel
import proofs.«145061_j50921132261911_2_alg».proof.Proof.Gen.KernelIdeal
import proofs.«145061_j50921132261911_2_alg».proof.Proof.Gen.ReferenceIdeal
import proofs.«145061_j50921132261911_2_alg».proof.Proof.Gen.Pre_finite_inputs
import proofs.«145061_j50921132261911_2_alg».proof.Proof.Gen.ReferenceIdeal.Run
import proofs.«145061_j50921132261911_2_alg».proof.Proof.KRun
import proofs.«145061_j50921132261911_2_alg».proof.Proof.KIRun
import proofs.«145061_j50921132261911_2_alg».proof.Proof.KIValue
import proofs.«145061_j50921132261911_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the one product of the (agreeing) arguments. -/
theorem algebraic : Cert.algebraic_KernelIdeal_ReferenceIdeal := by
  intro m ρ m' ρ' _ hagree
  refine ⟨fun c => Cert.KernelIdeal.Hand.AH (m ((c.tc : Thread Cert.KernelIdeal.nD Cert.KernelIdeal.τ).loc Cert.KernelIdeal.main_arg1))
      (Cert.KernelIdeal.Hand.HW (m ((c.tc : Thread Cert.KernelIdeal.nD Cert.KernelIdeal.τ).loc Cert.KernelIdeal.main_arg0))
        (m ((c.tc : Thread Cert.KernelIdeal.nD Cert.KernelIdeal.τ).loc Cert.KernelIdeal.main_arg2))), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v1_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
